-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S16384x16 : Shape := ⟨2, ![16384, 16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_v13 : IVec S_ 1) (main_v16 : IVec S16384x16 1) : IVec S_ 1 :=
  let main_c_5 : IVec S_ 1 := constantI S_ 1 1#1
  let main_v17 : IVec S_ 1 := (fun x v => Host.reduce IntOp.andi x v reducesTo_S16384x16_S_d0_1 h_S_) main_v16 main_c_5
  let main_v18 : IVec S_ 1 := andi main_v13 main_v17
  main_v18

def fn {F : FTy → Type} [FloatOps F] (main_arg0 : FVec F S2048x16 .f32) (main_arg1 : FVec F S2048x16 .f32) (main_arg2 : FVec F S16384x16 .f32) (main_arg3 : FVec F S16384x16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16384x16 .f32 := Host.absf main_arg2
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S16384x16 .f32 := Host.absf main_arg3
  let main_cst_4 : FVec F S_ .f32 := constant S_ .f32 0x7F800000#32
  let main_v15 : FVec F S16384x16 .f32 := broadcastInDim S16384x16 ![] bcast_S_S16384x16 main_cst_4
  let main_v16 : IVec S16384x16 1 := cmpf .olt main_v14 main_v15
  fn_part1 (F := F) main_v13 main_v16
-- ==== Kernel.lean ====
abbrev S2048x16 : Shape := ⟨2, ![2048, 16]⟩
abbrev S16384x16 : Shape := ⟨2, ![16384, 16]⟩
abbrev S16x16384 : Shape := ⟨2, ![16, 16384]⟩
abbrev S2048x16384 : Shape := ⟨2, ![2048, 16384]⟩
abbrev S512x16 : Shape := ⟨2, ![512, 16]⟩
abbrev S16x2048 : Shape := ⟨2, ![16, 2048]⟩
abbrev S512x2048 : Shape := ⟨2, ![512, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S16384x16, .f32⟩
  | .hbm, ⟨3, _⟩ => ⟨S16384x16, .f32⟩
  | .hbm, ⟨4, _⟩ => ⟨S16x16384, .f32⟩
  | .hbm, ⟨5, _⟩ => ⟨S16384x16, .f32⟩
  | .hbm, ⟨6, _⟩ => ⟨S16384x16, .f32⟩
  | .hbm, ⟨7, _⟩ => ⟨S16x16384, .f32⟩
  | .hbm, ⟨8, _⟩ => ⟨S16x16384, .f32⟩
  | .hbm, ⟨9, _⟩ => ⟨S2048x16384, .f32⟩
  | .hbm, ⟨10, _⟩ => ⟨S2048x16384, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S16384x16_S16x16384_1_0 : S16384x16.Transposes [1, 0] S16x16384
  inb_S512x16_S512x16_0_0 : ∀ a, (![0, 0] : Fin 2 → Nat) a + S512x16.size a ≤ S512x16.size a
  h_S512x16 : 0 < S512x16.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S2048x16.size a
  hwx0_0 : ∀ i : grid0.Coords, EltTy.bits .f32 = 32 ∨ (Rect.block (s := S2048x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S2048x16.size a
  hwx0_1 : ∀ i : grid0.Coords, EltTy.bits .f32 = 32 ∨ (Rect.block (s := S2048x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x16384.size a
  hwx0_2 : ∀ i : grid0.Coords, EltTy.bits .f32 = 32 ∨ (Rect.block (s := S16x16384) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x16384.size a
  hwx0_3 : ∀ i : grid0.Coords, EltTy.bits .f32 = 32 ∨ (Rect.block (s := S16x16384) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2048.size a ≤ S16x16384.size a
  hwx0_4 : ∀ i : grid0.Coords, EltTy.bits .f32 = 32 ∨ (Rect.block (s := S16x16384) S16x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x16384.size a
  hwx0_5 : ∀ i : grid0.Coords, EltTy.bits .f32 = 32 ∨ (Rect.block (s := S2048x16384) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S2048x16384.size a
  hwx0_6 : ∀ i : grid0.Coords, EltTy.bits .f32 = 32 ∨ (Rect.block (s := S2048x16384) S512x2048.size (cc0_transform_6 i) (hinb0_6 i)).WholeWords (EltTy.packing .f32)

variable [Facts₀]

def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_arg0) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x16 : Shape := ⟨2, ![2048, 16]⟩
abbrev S16384x16 : Shape := ⟨2, ![16384, 16]⟩
abbrev S2048x16384 : Shape := ⟨2, ![2048, 16384]⟩

abbrev nBuf : Space → Nat
  | .hbm => 12
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S16384x16, .f32⟩
  | .hbm, ⟨3, _⟩ => ⟨S16384x16, .f32⟩
  | .hbm, ⟨4, _⟩ => ⟨S2048x16384, .f32⟩
  | .hbm, ⟨5, _⟩ => ⟨S16384x16, .f32⟩
  | .hbm, ⟨6, _⟩ => ⟨S2048x16384, .f32⟩
  | .hbm, ⟨7, _⟩ => ⟨S2048x16, .f32⟩
  | .hbm, ⟨8, _⟩ => ⟨S2048x16384, .f32⟩
  | .hbm, ⟨9, _⟩ => ⟨S2048x16384, .f32⟩
  | .hbm, ⟨10, _⟩ => ⟨S2048x16384, .f32⟩
  | .hbm, ⟨11, _⟩ => ⟨S2048x16384, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  dot_S2048x16_S16384x16_S2048x16384_1_1_0_0_n_n_wf : DotDims.WF S2048x16 S16384x16 S2048x16384 [1] [1] [0] [0] [] []

variable [Facts₀]

def dot_S2048x16_S16384x16_S2048x16384_1_1_0_0_n_n : DotDims S2048x16 S16384x16 S2048x16384 where
  lhsContracting := [1]
  rhsContracting := [1]
  lhsNonContracting := [0]
  rhsNonContracting := [0]
  lhsBatch := []
  rhsBatch := []
  wf := dot_S2048x16_S16384x16_S2048x16384_1_1_0_0_n_n_wf

class Facts : Prop extends Facts₀ where

variable [Facts]
-- ==== Proof.KernelBlocks.lean ====
/-
  The input blocks of the kernel at a grid point, entry by entry, as entries of the four argument arrays.

  The grid is 4 × 8: point (r, s) produces the [512, 2048] block of each output at block row r and block column s. It
  reads rows 512·r … 512·r + 511 of the branch means and of the branch variances (all 16 latent columns), and columns
  2048·s … 2048·s + 2047 of three [16, 16384] arrays the host computes before the launch: the transposed trunk means,
  the transposed trunk second moments `pm² + pv`, and the transposed trunk variances. A transposed array at (k, g)
  is the source at (g, k). So every entry a block holds is an entry of an argument array (or, for the second moments,
  `pm[g, k]² + pv[g, k]`), at a row determined by the output block's row or column.
-/
import proofs.«162974_j52166672777688_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Moment

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The four argument arrays as launched on core `c`, as arrays of extended reals: the branch means and variances
    [2048, 16], the trunk means and variances [16384, 16]. -/
abbrev branchMean (c : Dev nD) : S2048x16.Idx → EReal := m ((c : Thread nD τ).loc main_arg0)
abbrev branchVar (c : Dev nD) : S2048x16.Idx → EReal := m ((c : Thread nD τ).loc main_arg1)
abbrev trunkMean (c : Dev nD) : S16384x16.Idx → EReal := m ((c : Thread nD τ).loc main_arg2)
abbrev trunkVar (c : Dev nD) : S16384x16.Idx → EReal := m ((c : Thread nD τ).loc main_arg3)

/-- The block indices of the seven windows at a grid point, relative to the first output's (block row, block column):
    the branch blocks follow the block row and sit at latent block 0, the transposed trunk blocks sit at latent block 0
    and follow the block column, the second output moves with the first; there are 4 block rows and 8 block columns. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_6.index t (0 : Fin 2) = win0_5.index t (0 : Fin 2) ∧ win0_6.index t (1 : Fin 2) = win0_5.index t (1 : Fin 2)
    ∧ win0_5.index t (0 : Fin 2) ≤ 3 ∧ win0_5.index t (1 : Fin 2) ≤ 7 :=
  (by decide +kernel : ∀ t : Fin grid0.N, _)

/-- Every (block row, block column) is some grid point's, for each output. -/
theorem mean_onto : ∀ (q0 : Fin 4) (q1 : Fin 8), ∃ t : Fin cfg0.N, win0_5.index t = ![q0.val, q1.val] :=
  (by decide +kernel : ∀ (q0 : Fin 4) (q1 : Fin 8), ∃ t : Fin grid0.N, win0_5.index t = ![q0.val, q1.val])
theorem var_onto : ∀ (q0 : Fin 4) (q1 : Fin 8), ∃ t : Fin cfg0.N, win0_6.index t = ![q0.val, q1.val] :=
  (by decide +kernel : ∀ (q0 : Fin 4) (q1 : Fin 8), ∃ t : Fin grid0.N, win0_6.index t = ![q0.val, q1.val])

/-! ## The arrays the host writes before the launch -/

/-- The third operand's array is the trunk means transposed. -/
theorem trunk_meansT (c : Dev nD) :
    (V m c main_v0 : S16x16384.Idx → EReal)
      = transpose S16x16384 [1, 0] (trunkMean m c) transposes_S16384x16_S16x16384_1_0 := by
  dsimp only [Gen.V, Gen.hostOps0]; after_results; try rfl

/-- The fourth operand's array is the trunk second moments `pm² + pv` transposed. -/
theorem trunk_secondT (c : Dev nD) :
    (V m c main_v3 : S16x16384.Idx → EReal)
      = transpose S16x16384 [1, 0] (addf (F := Ideal) (φ := .f32) (mulf (F := Ideal) (φ := .f32) (trunkMean m c) (trunkMean m c))
          (trunkVar m c)) transposes_S16384x16_S16x16384_1_0 := by
  dsimp only [Gen.V, Gen.hostOps0]; after_results; try rfl

/-- The fifth operand's array is the trunk variances transposed. -/
theorem trunk_varsT (c : Dev nD) :
    (V m c main_v4 : S16x16384.Idx → EReal)
      = transpose S16x16384 [1, 0] (trunkVar m c) transposes_S16384x16_S16x16384_1_0 := by
  dsimp only [Gen.V, Gen.hostOps0]; after_results; try rfl

/-- A [16384, 16] array transposed, at (k, g), is the array at (g, k). -/
theorem transposed_apply (x : S16384x16.Idx → EReal) (j : S16x16384.Idx) (k : Fin 16) (g : Fin 16384)
    (h0 : (j 0).val = k.val) (h1 : (j 1).val = g.val) :
    transpose S16x16384 [1, 0] x transposes_S16384x16_S16x16384_1_0 j = x (ix2 g k) :=
  transpose_apply [1, 0] x transposes_S16384x16_S16x16384_1_0 j (ix2 g k) fun b => by
    match b with
    | ⟨0, _⟩ => exact h0.symm
    | ⟨1, _⟩ => exact h1.symm

/-! ## The blocks -/

/-- Entry (p, k) of the branch means' block is the branch means at row `512 · (block row) + p`. -/
theorem branch_means_block (c : Dev nD) (t : Fin cfg0.N) (p : Fin 512) (k : Fin 16) (b : Fin 2048)
    (hb : b.val = win0_5.index t (0 : Fin 2) * 512 + p.val) :
    (iblk m c 0 t : Vec Ideal S512x16 .f32) (ix2 p k)
      = branchMean m c (ix2 b k) := by
  obtain ⟨e0, e1, -⟩ := index_facts t
  unfold iblk
  rw [View.read_apply]
  show V m c main_arg0 _ = _
  rw [V_main_arg0]
  refine congrArg (branchMean m c) (funext fun a => Fin.ext ?_)
  match a with
  | ⟨0, _⟩ => show win0_0.index t (0 : Fin 2) * 512 + 1 * p.val = b.val; omega
  | ⟨1, _⟩ => show win0_0.index t (1 : Fin 2) * 16 + 1 * k.val = k.val; omega

/-- Entry (p, k) of the branch variances' block is the branch variances at row `512 · (block row) + p`. -/
theorem branch_vars_block (c : Dev nD) (t : Fin cfg0.N) (p : Fin 512) (k : Fin 16) (b : Fin 2048)
    (hb : b.val = win0_5.index t (0 : Fin 2) * 512 + p.val) :
    (iblk m c 1 t : Vec Ideal S512x16 .f32) (ix2 p k)
      = branchVar m c (ix2 b k) := by
  obtain ⟨-, -, e0, e1, -⟩ := index_facts t
  unfold iblk
  rw [View.read_apply]
  show V m c main_arg1 _ = _
  rw [V_main_arg1]
  refine congrArg (branchVar m c) (funext fun a => Fin.ext ?_)
  match a with
  | ⟨0, _⟩ => show win0_1.index t (0 : Fin 2) * 512 + 1 * p.val = b.val; omega
  | ⟨1, _⟩ => show win0_1.index t (1 : Fin 2) * 16 + 1 * k.val = k.val; omega

/-- Entry (k, q) of the transposed trunk means' block is the trunk means at row `2048 · (block column) + q`, column k. -/
theorem trunk_means_block (c : Dev nD) (t : Fin cfg0.N) (k : Fin 16) (q : Fin 2048) (g : Fin 16384)
    (hg : g.val = win0_5.index t (1 : Fin 2) * 2048 + q.val) :
    (iblk m c 2 t : Vec Ideal S16x2048 .f32) (ix2 k q)
      = trunkMean m c (ix2 g k) := by
  obtain ⟨-, -, -, -, e0, e1, -⟩ := index_facts t
  unfold iblk
  rw [View.read_apply]
  show V m c main_v0 _ = _
  rw [trunk_meansT]
  refine transposed_apply _ _ k g ?_ ?_
  · show win0_2.index t (0 : Fin 2) * 16 + 1 * k.val = k.val; omega
  · show win0_2.index t (1 : Fin 2) * 2048 + 1 * q.val = g.val; omega

/-- Entry (k, q) of the transposed second moments' block is `pm² + pv` at that row and column. -/
theorem trunk_second_block (c : Dev nD) (t : Fin cfg0.N) (k : Fin 16) (q : Fin 2048) (g : Fin 16384)
    (hg : g.val = win0_5.index t (1 : Fin 2) * 2048 + q.val) :
    (iblk m c 3 t : Vec Ideal S16x2048 .f32) (ix2 k q)
      = trunkMean m c (ix2 g k) * trunkMean m c (ix2 g k) + trunkVar m c (ix2 g k) := by
  obtain ⟨-, -, -, -, -, -, e0, e1, -⟩ := index_facts t
  unfold iblk
  rw [View.read_apply]
  show V m c main_v3 _ = _
  rw [trunk_secondT]
  refine (transposed_apply _ _ k g ?_ ?_).trans rfl
  · show win0_3.index t (0 : Fin 2) * 16 + 1 * k.val = k.val; omega
  · show win0_3.index t (1 : Fin 2) * 2048 + 1 * q.val = g.val; omega

/-- Entry (k, q) of the transposed trunk variances' block is the trunk variances at that row and column. -/
theorem trunk_vars_block (c : Dev nD) (t : Fin cfg0.N) (k : Fin 16) (q : Fin 2048) (g : Fin 16384)
    (hg : g.val = win0_5.index t (1 : Fin 2) * 2048 + q.val) :
    (iblk m c 4 t : Vec Ideal S16x2048 .f32) (ix2 k q)
      = trunkVar m c (ix2 g k) := by
  obtain ⟨-, -, -, -, -, -, -, -, e0, e1, -⟩ := index_facts t
  unfold iblk
  rw [View.read_apply]
  show V m c main_v4 _ = _
  rw [trunk_varsT]
  refine transposed_apply _ _ k g ?_ ?_
  · show win0_4.index t (0 : Fin 2) * 16 + 1 * k.val = k.val; omega
  · show win0_4.index t (1 : Fin 2) * 2048 + 1 * q.val = g.val; omega

end Cert.KernelIdeal.Moment

end
-- ==== Proof.KernelPayload.lean ====
/-
  What the kernel body stores, entry by entry, at the ideal values.

  The body multiplies a [512, 16] block of branch statistics by a [16, 2048] block of (transposed) trunk statistics,
  contracting the block's second axis against the other's first, into a zero accumulator: entry (p, q) of the product
  is Σ_k l[p, k] · r[k, q]. Rounding the operands to bf16 is the identity at the ideal values and the shape casts are
  between equal shapes, so the first stored value is that product of the branch means' block and the trunk means'
  block, and the second is the sum of two such products: the branch variances' block against the trunk second
  moments' block, and the squared branch means' block against the trunk variances' block.
-/
import proofs.«162974_j52166672777688_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Moment

open Cert.KernelIdeal Cert.KernelIdeal.Gen
open Idealize.ShloMosaic Idealize.ShloMosaic.ValueIdx

/-- The left operand's row coordinate is the output's row. -/
theorem lhs_row (i : S512x2048.Idx) (q : dot_S512x16_S16x2048_S512x2048_1_0_0_1_n_n.contr.Idx) :
    (dot_S512x16_S16x2048_S512x2048_1_0_0_1_n_n.lhsIdx i q 0).val = (i 0).val := by
  unfold DotDims.lhsIdx
  rw [dif_neg (show ¬(0 : Fin S512x16.rank) ∈ dot_S512x16_S16x2048_S512x2048_1_0_0_1_n_n.lhsBatch by decide),
    dif_pos (show (0 : Fin S512x16.rank) ∈ dot_S512x16_S16x2048_S512x2048_1_0_0_1_n_n.lhsNonContracting by decide)]
  rfl

/-- The left operand's column coordinate is the contraction position. -/
theorem lhs_col (i : S512x2048.Idx) (q : dot_S512x16_S16x2048_S512x2048_1_0_0_1_n_n.contr.Idx) :
    (dot_S512x16_S16x2048_S512x2048_1_0_0_1_n_n.lhsIdx i q 1).val = (q ⟨0, by decide⟩).val :=
  dot_S512x16_S16x2048_S512x2048_1_0_0_1_n_n.lhsIdx_val_of_single rfl i q

/-- The right operand's row coordinate is the contraction position. -/
theorem rhs_row (i : S512x2048.Idx) (q : dot_S512x16_S16x2048_S512x2048_1_0_0_1_n_n.contr.Idx) :
    (dot_S512x16_S16x2048_S512x2048_1_0_0_1_n_n.rhsIdx i q 0).val = (q ⟨0, by decide⟩).val :=
  dot_S512x16_S16x2048_S512x2048_1_0_0_1_n_n.rhsIdx_val_of_single rfl i q

/-- The right operand's column coordinate is the output's column. -/
theorem rhs_col (i : S512x2048.Idx) (q : dot_S512x16_S16x2048_S512x2048_1_0_0_1_n_n.contr.Idx) :
    (dot_S512x16_S16x2048_S512x2048_1_0_0_1_n_n.rhsIdx i q 1).val = (i 1).val := by
  unfold DotDims.rhsIdx
  rw [dif_neg (show ¬(1 : Fin S16x2048.rank) ∈ dot_S512x16_S16x2048_S512x2048_1_0_0_1_n_n.rhsBatch by decide),
    dif_pos (show (1 : Fin S16x2048.rank) ∈ dot_S512x16_S16x2048_S512x2048_1_0_0_1_n_n.rhsNonContracting by decide)]
  rfl

/-- A [512, 16] block times a [16, 2048] block into a zero accumulator, at entry (p, q): Σ_k l[p, k] · r[k, q]. -/
theorem product_apply (l : FVec Ideal S512x16 .bf16) (r : FVec Ideal S16x2048 .bf16) (p : Fin 512) (q : Fin 2048) :
    matmul dot_S512x16_S16x2048_S512x2048_1_0_0_1_n_n none l r (constant (F := Ideal) S512x2048 .f32 0x00000000#32) (ix2 p q)
      = ∑ k : Fin 16, l (ix2 p k) * r (ix2 k q) := by
  simp only [matmul]
  rw [Ideal.matmul_constant_zero_apply,
    ← Equiv.sum_comp (contrEquiv1 dot_S512x16_S16x2048_S512x2048_1_0_0_1_n_n 16 rfl rfl).symm]
  refine Finset.sum_congr rfl fun k _ => ?_
  have hk := contrEquiv1_symm_val dot_S512x16_S16x2048_S512x2048_1_0_0_1_n_n 16 rfl rfl k
  have el : dot_S512x16_S16x2048_S512x2048_1_0_0_1_n_n.lhsIdx (ix2 p q)
      ((contrEquiv1 dot_S512x16_S16x2048_S512x2048_1_0_0_1_n_n 16 rfl rfl).symm k) = ix2 p k :=
    funext fun a => Fin.ext (by
      match a with
      | ⟨0, _⟩ => exact lhs_row _ _
      | ⟨1, _⟩ => exact (lhs_col _ _).trans hk)
  have er : dot_S512x16_S16x2048_S512x2048_1_0_0_1_n_n.rhsIdx (ix2 p q)
      ((contrEquiv1 dot_S512x16_S16x2048_S512x2048_1_0_0_1_n_n 16 rfl rfl).symm k) = ix2 k q :=
    funext fun a => Fin.ext (by
      match a with
      | ⟨0, _⟩ => exact (rhs_row _ _).trans hk
      | ⟨1, _⟩ => exact rhs_col _ _)
  rw [el, er]

/-- The first stored value at (p, q): the branch means' block against the trunk means' block. -/
theorem mean_payload (v0 : Vec Ideal S512x16 .f32) (v2 : Vec Ideal S16x2048 .f32) (p : Fin 512) (q : Fin 2048) :
    k0_pay1 (F := Ideal) v0 v2 (ix2 p q) = ∑ k : Fin 16, v0 (ix2 p k) * v2 (ix2 k q) := by
  unfold k0_pay1
  rw [shapeCast_self]
  exact product_apply _ _ p q

/-- The second stored value at (p, q): the branch variances' block against the trunk second moments' block, plus the
    squared branch means' block against the trunk variances' block. -/
theorem var_payload (v0 v1 : Vec Ideal S512x16 .f32) (v4 v6 : Vec Ideal S16x2048 .f32) (p : Fin 512) (q : Fin 2048) :
    k0_pay2 (F := Ideal) v0 v1 v4 v6 (ix2 p q)
      = (∑ k : Fin 16, v1 (ix2 p k) * v4 (ix2 k q)) + ∑ k : Fin 16, (v0 (ix2 p k) * v0 (ix2 p k)) * v6 (ix2 k q) := by
  unfold k0_pay2
  rw [shapeCast_self, shapeCast_self]
  show matmul _ none _ _ _ (ix2 p q) + matmul _ none _ _ _ (ix2 p q) = _
  rw [product_apply, product_apply]
  rfl

end Cert.KernelIdeal.Moment

end
-- ==== Proof.MomentSpec.lean ====
/-
  Moment matching for a product of independent Gaussians, summed over the latent axis.

  For row `b` of the branch statistics (`am`, `av` : [2048, 16]) and row `g` of the trunk statistics
  (`pm`, `pv` : [16384, 16]):

    mean[b, g] = Σ_l am[b, l] · pm[g, l]
    var[b, g]  = Σ_l av[b, l] · (pm[g, l]² + pv[g, l])  +  Σ_l am[b, l]² · pv[g, l]                      (two contractions)
               = (Σ_l av[b, l] · pm[g, l]²  +  Σ_l am[b, l]² · pv[g, l])  +  Σ_l av[b, l] · pv[g, l]     (three contractions)

  The two forms of the variance differ by `x · (y + z) = x · y + x · z` under the sum and by the grouping of three sums.
  On the extended reals the first fails at infinities, so the two forms are proved equal for arrays whose entries are
  all real (`AllReal`): the entries are replaced by real witnesses, every coercion is pushed to the outside, and the
  identity is one of real numbers.
-/
import Idealize.ShloMosaic.PureOps.Ideal
import Idealize.ShloMosaic.Lib.ValueIdx

noncomputable section

open scoped BigOperators

namespace Cert.Moment

open Idealize.ShloMosaic Idealize.ShloMosaic.ValueIdx

/-- The branch statistics' shape, the trunk statistics' shape and the predictions' shape. -/
abbrev SAlpha : Shape := ⟨2, ![2048, 16]⟩
abbrev SPhi : Shape := ⟨2, ![16384, 16]⟩
abbrev SOut : Shape := ⟨2, ![2048, 16384]⟩

/-- The predicted mean at (b, g): the branch means against the trunk means, contracted over the latent axis. -/
def meanAt (am : SAlpha.Idx → EReal) (pm : SPhi.Idx → EReal) (b : Fin 2048) (g : Fin 16384) : EReal :=
  ∑ k : Fin 16, am (ix2 b k) * pm (ix2 g k)

/-- The predicted variance at (b, g), two contractions: the branch variances against the trunk second moments
    `pm² + pv`, plus the squared branch means against the trunk variances. -/
def varAt (am av : SAlpha.Idx → EReal) (pm pv : SPhi.Idx → EReal) (b : Fin 2048) (g : Fin 16384) : EReal :=
  (∑ k : Fin 16, av (ix2 b k) * (pm (ix2 g k) * pm (ix2 g k) + pv (ix2 g k)))
    + ∑ k : Fin 16, (am (ix2 b k) * am (ix2 b k)) * pv (ix2 g k)

/-- The same variance as three contractions, grouped as (first + second) + third. -/
def varAt3 (am av : SAlpha.Idx → EReal) (pm pv : SPhi.Idx → EReal) (b : Fin 2048) (g : Fin 16384) : EReal :=
  ((∑ k : Fin 16, av (ix2 b k) * (pm (ix2 g k) * pm (ix2 g k)))
    + ∑ k : Fin 16, (am (ix2 b k) * am (ix2 b k)) * pv (ix2 g k))
    + ∑ k : Fin 16, av (ix2 b k) * pv (ix2 g k)

/-- The whole arrays of predictions, index by index. -/
def mean (am : SAlpha.Idx → EReal) (pm : SPhi.Idx → EReal) : SOut.Idx → EReal :=
  fun i => meanAt am pm ⟨(i 0).val, (i 0).isLt⟩ ⟨(i 1).val, (i 1).isLt⟩

def var (am av : SAlpha.Idx → EReal) (pm pv : SPhi.Idx → EReal) : SOut.Idx → EReal :=
  fun i => varAt am av pm pv ⟨(i 0).val, (i 0).isLt⟩ ⟨(i 1).val, (i 1).isLt⟩

/-- Every entry of an array is a real number (neither infinity). -/
def AllReal {S : Shape} (x : S.Idx → EReal) : Prop := ∀ i, ∃ r : ℝ, x i = (r : EReal)

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The two forms of the variance over real entries: distributivity under the first sum, then regrouping. -/
theorem three_eq_two (a b p v : Fin 16 → ℝ) :
    ((∑ k, (b k : EReal) * ((p k : EReal) * (p k : EReal))) + ∑ k, ((a k : EReal) * (a k : EReal)) * (v k : EReal))
        + ∑ k, (b k : EReal) * (v k : EReal)
      = (∑ k, (b k : EReal) * ((p k : EReal) * (p k : EReal) + (v k : EReal)))
        + ∑ k, ((a k : EReal) * (a k : EReal)) * (v k : EReal) := by
  simp only [← EReal.coe_mul, ← EReal.coe_add, ← coe_sum]
  refine congrArg _ ?_
  simp only [mul_add, Finset.sum_add_distrib]
  ring

/-- On arrays of real entries the three-contraction variance is the two-contraction one. -/
theorem varAt3_eq_varAt (am av : SAlpha.Idx → EReal) (pm pv : SPhi.Idx → EReal)
    (ham : AllReal am) (hav : AllReal av) (hpm : AllReal pm) (hpv : AllReal pv) (b : Fin 2048) (g : Fin 16384) :
    varAt3 am av pm pv b g = varAt am av pm pv b g := by
  choose a ha using fun k : Fin 16 => ham (ix2 b k)
  choose w hw using fun k : Fin 16 => hav (ix2 b k)
  choose p hp using fun k : Fin 16 => hpm (ix2 g k)
  choose v hv using fun k : Fin 16 => hpv (ix2 g k)
  unfold varAt3 varAt
  simp only [ha, hw, hp, hv]
  exact three_eq_two a w p v

end Cert.Moment

end
-- ==== Proof.KernelMoment.lean ====
/-
  The kernel's two output arrays after the run, as the specification's functions of the launched arrays.

  At grid point t the first output's [512, 2048] block holds, at (p, q), the product of the branch means' block and the
  transposed trunk means' block; reading each block entry as an entry of an argument array (row 512·r + p of the branch
  means, row 2048·s + q of the trunk means, for the point's block row r and block column s) this is the predicted mean at
  the array index (512·r + p, 2048·s + q) the block's entry is written back to. Likewise the second output's block holds
  the two-contraction variance there. The 4 × 8 blocks tile the [2048, 16384] arrays — index (i₀, i₁) lies in block
  (i₀ / 512, i₁ / 2048) — so each array ends as the whole function.
-/
import proofs.«162974_j52166672777688_2_alg».proof.Proof.Gen.KernelIdeal.Value
import proofs.«162974_j52166672777688_2_alg».proof.Proof.KernelBlocks
import proofs.«162974_j52166672777688_2_alg».proof.Proof.KernelPayload
import proofs.«162974_j52166672777688_2_alg».proof.Proof.MomentSpec
import Idealize.ShloMosaic.Lib.Pipeline.Value

noncomputable section

open scoped BigOperators

namespace Cert.KernelIdeal.Moment

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The predicted mean -/

/-- What point `t` writes back to the first output is block `t` of the predicted mean. -/
theorem mean_flushed (c : Dev nD) (t : Fin cfg0.N) :
    (dats m 0 c).flushed 5 t
      = ((cfg0.win 5).blk t).view.read (Elt Ideal) (Cert.Moment.mean (branchMean m c) (trunkMean m c)) := by
  rw [Value.flushed5]
  unfold out0_5
  rw [View.canon_unit_zero zero_offsets]
  simp only [View.ld_unit_zero (S := S512x16) zero_offsets, View.ld_unit_zero (S := S16x2048) zero_offsets]
  funext y
  obtain ⟨p, q, rfl⟩ : ∃ (p : Fin 512) (q : Fin 2048), y = ix2 p q := ⟨y 0, y 1, eq_ix2 y⟩
  show k0_pay1 (iblk m c 0 t) (iblk m c 2 t) (ix2 p q)
    = Cert.Moment.mean (branchMean m c) (trunkMean m c) (((cfg0.win 5).blk t).view.emb (ix2 p q))
  refine (mean_payload (iblk m c 0 t) (iblk m c 2 t) p q).trans ?_
  unfold Cert.Moment.mean Cert.Moment.meanAt
  refine Finset.sum_congr rfl fun k _ => ?_
  refine congrArg₂ (· * ·) (branch_means_block m c t p k _ ?_) (trunk_means_block m c t k q _ ?_)
  · show win0_5.index t (0 : Fin 2) * 512 + 1 * p.val = _; omega
  · show win0_5.index t (1 : Fin 2) * 2048 + 1 * q.val = _; omega

/-- An index of the first output is in point `t`'s block iff each coordinate is in the block's range on its axis. -/
theorem mean_mem_blk (t : Fin cfg0.N) (i : S2048x16384.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v5_0).slice (win0_5.rect t)).set ↔ _
  rw [View.set_slice_whole, Rect.mem_set_unit]
  exact Iff.rfl

/-- Every index of the first output is in some point's block: block (i₀ / 512, i₁ / 2048). -/
theorem mean_cover (i : S2048x16384.Idx) :
    ∃ t : Fin cfg0.N, (cfg0.win 5).flush t = true ∧ i ∈ ((cfg0.win 5).blk t).view.set := by
  have hi0 : (i 0).val < 2048 := (i 0).isLt
  have hi1 : (i 1).val < 16384 := (i 1).isLt
  obtain ⟨t, ht⟩ := mean_onto ⟨(i 0).val / 512, by omega⟩ ⟨(i 1).val / 2048, by omega⟩
  have q0 : win0_5.index t (0 : Fin 2) = (i 0).val / 512 := congrFun ht 0
  have q1 : win0_5.index t (1 : Fin 2) = (i 1).val / 2048 := congrFun ht 1
  refine ⟨t, flush0_5 t, ?_⟩
  rw [mean_mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 2048 ≤ (i 1).val ∧ (i 1).val < win0_5.index t (1 : Fin 2) * 2048 + 2048
    omega

/-- The first output after the run is the predicted mean. -/
theorem mean_final (c : Dev nD) :
    (dats m 0 c).arrAt 5 cfg0.N = Cert.Moment.mean (branchMean m c) (trunkMean m c) :=
  (dats m 0 c).arrAt_eq_of_cover 5 (Cert.Moment.mean (branchMean m c) (trunkMean m c))
    (fun t _ => mean_flushed m c t) mean_cover

/-! ## The predicted variance -/

/-- What point `t` writes back to the second output is block `t` of the predicted variance. -/
theorem var_flushed (c : Dev nD) (t : Fin cfg0.N) :
    (dats m 0 c).flushed 6 t
      = ((cfg0.win 6).blk t).view.read (Elt Ideal)
          (Cert.Moment.var (branchMean m c) (branchVar m c) (trunkMean m c) (trunkVar m c)) := by
  obtain ⟨-, -, -, -, -, -, -, -, -, -, e0, e1, -⟩ := index_facts t
  rw [Value.flushed6]
  unfold out0_6
  rw [View.canon_unit_zero zero_offsets]
  simp only [View.ld_unit_zero (S := S512x16) zero_offsets, View.ld_unit_zero (S := S16x2048) zero_offsets]
  funext y
  obtain ⟨p, q, rfl⟩ : ∃ (p : Fin 512) (q : Fin 2048), y = ix2 p q := ⟨y 0, y 1, eq_ix2 y⟩
  show k0_pay2 (iblk m c 0 t) (iblk m c 1 t) (iblk m c 3 t) (iblk m c 4 t) (ix2 p q)
    = Cert.Moment.var (branchMean m c) (branchVar m c) (trunkMean m c) (trunkVar m c) (((cfg0.win 6).blk t).view.emb (ix2 p q))
  refine (var_payload (iblk m c 0 t) (iblk m c 1 t) (iblk m c 3 t) (iblk m c 4 t) p q).trans ?_
  unfold Cert.Moment.var Cert.Moment.varAt
  refine congrArg₂ (· + ·) (Finset.sum_congr rfl fun k _ => ?_) (Finset.sum_congr rfl fun k _ => ?_)
  · refine congrArg₂ (· * ·) (branch_vars_block m c t p k _ ?_) (trunk_second_block m c t k q _ ?_)
    · show win0_6.index t (0 : Fin 2) * 512 + 1 * p.val = _; omega
    · show win0_6.index t (1 : Fin 2) * 2048 + 1 * q.val = _; omega
  · refine congrArg₂ (· * ·) (congrArg₂ (· * ·) (branch_means_block m c t p k _ ?_) (branch_means_block m c t p k _ ?_))
      (trunk_vars_block m c t k q _ ?_)
    · show win0_6.index t (0 : Fin 2) * 512 + 1 * p.val = _; omega
    · show win0_6.index t (0 : Fin 2) * 512 + 1 * p.val = _; omega
    · show win0_6.index t (1 : Fin 2) * 2048 + 1 * q.val = _; omega

/-- An index of the second output is in point `t`'s block iff each coordinate is in the block's range on its axis. -/
theorem var_mem_blk (t : Fin cfg0.N) (i : S2048x16384.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v5_1).slice (win0_6.rect t)).set ↔ _
  rw [View.set_slice_whole, Rect.mem_set_unit]
  exact Iff.rfl

/-- Every index of the second output is in some point's block: block (i₀ / 512, i₁ / 2048). -/
theorem var_cover (i : S2048x16384.Idx) :
    ∃ t : Fin cfg0.N, (cfg0.win 6).flush t = true ∧ i ∈ ((cfg0.win 6).blk t).view.set := by
  have hi0 : (i 0).val < 2048 := (i 0).isLt
  have hi1 : (i 1).val < 16384 := (i 1).isLt
  obtain ⟨t, ht⟩ := var_onto ⟨(i 0).val / 512, by omega⟩ ⟨(i 1).val / 2048, by omega⟩
  have q0 : win0_6.index t (0 : Fin 2) = (i 0).val / 512 := congrFun ht 0
  have q1 : win0_6.index t (1 : Fin 2) = (i 1).val / 2048 := congrFun ht 1
  refine ⟨t, flush0_6 t, ?_⟩
  rw [var_mem_blk]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 2048 ≤ (i 1).val ∧ (i 1).val < win0_6.index t (1 : Fin 2) * 2048 + 2048
    omega

/-- The second output after the run is the predicted variance. -/
theorem var_final (c : Dev nD) :
    (dats m 0 c).arrAt 6 cfg0.N = Cert.Moment.var (branchMean m c) (branchVar m c) (trunkMean m c) (trunkVar m c) :=
  (dats m 0 c).arrAt_eq_of_cover 6 (Cert.Moment.var (branchMean m c) (branchVar m c) (trunkMean m c) (trunkVar m c))
    (fun t _ => var_flushed m c t) var_cover

/-! ## The run -/

/-- Every weakly fair execution of the kernel's program terminates with the two outputs at the predicted mean and
    variance of the launched arrays, and the four arguments unchanged. -/
theorem run : θ_run defs (onTc (τ := τ) (main (F := Ideal))) ⟨m, fun _ => 0, ρ⟩ fun r => ∀ c : Dev nD,
      r.2.mem ((c : Thread nD τ).loc main_v5_0) = Cert.Moment.mean (branchMean m c) (trunkMean m c)
      ∧ r.2.mem ((c : Thread nD τ).loc main_v5_1)
          = Cert.Moment.var (branchMean m c) (branchVar m c) (trunkMean m c) (trunkVar m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (mean_final m c), (h c).2.1.trans (var_final m c), (h c).2.2⟩)
    (Value.run_blocks m ρ)

end Cert.KernelIdeal.Moment

end
-- ==== Proof.RefMoment.lean ====
/-
  The reference's two results, read index by index, are the specification's functions of the four argument arrays.

  The mean is one contraction over the latent axis of the branch means [2048, 16] against the trunk means [16384, 16],
  both contracted on their second axis: at (b, g) it is Σ_l am[b, l] · pm[g, l]. The variance is the sum of three such
  contractions — branch variances against squared trunk means, squared branch means against trunk variances, branch
  variances against trunk variances — grouped (first + second) + third: the three-contraction form, which on arrays
  of real entries is the two-contraction form.
-/
import proofs.«162974_j52166672777688_2_alg».proof.Proof.Gen.ReferenceIdeal.Read
import proofs.«162974_j52166672777688_2_alg».proof.Proof.MomentSpec

noncomputable section

open scoped BigOperators

namespace Cert.ReferenceIdeal.Moment

open Cert.ReferenceIdeal Cert.ReferenceIdeal.Read Cert.Moment
open Idealize.ShloMosaic Idealize.ShloMosaic.ValueIdx

/-- The row of a left operand that output index `i` reads at latent coordinate `k`: (i₀, k). -/
theorem left_idx (i : S2048x16384.Idx) (k : Fin 16) :
    (fun a => match a with
      | ⟨0, _⟩ => ⟨(i 0).val, (i 0).isLt⟩
      | ⟨1, _⟩ => ⟨k.val, k.isLt⟩ : S2048x16.Idx) = ix2 (⟨(i 0).val, (i 0).isLt⟩ : Fin 2048) k :=
  funext fun a => by match a with | ⟨0, _⟩ => rfl | ⟨1, _⟩ => rfl

/-- The row of a right operand that output index `i` reads at latent coordinate `k`: (i₁, k). -/
theorem right_idx (i : S2048x16384.Idx) (k : Fin 16) :
    (fun a => match a with
      | ⟨0, _⟩ => ⟨(i 1).val, (i 1).isLt⟩
      | ⟨1, _⟩ => ⟨k.val, k.isLt⟩ : S16384x16.Idx) = ix2 (⟨(i 1).val, (i 1).isLt⟩ : Fin 16384) k :=
  funext fun a => by match a with | ⟨0, _⟩ => rfl | ⟨1, _⟩ => rfl

/-- The reference's first result is the predicted mean. -/
theorem mean_eq (x0 : (⟨S2048x16, .f32⟩ : BufTy).Contents (Elt Ideal)) (x2 : (⟨S16384x16, .f32⟩ : BufTy).Contents (Elt Ideal)) :
    val_main_v0 (F := Ideal) x0 x2 = Cert.Moment.mean x0 x2 := by
  funext i
  rw [val_main_v0_apply]
  unfold Cert.Moment.mean Cert.Moment.meanAt
  refine Finset.sum_congr rfl fun k _ => ?_
  show x0 (lidx_main_v0 i k) * x2 (ridx_main_v0 i k) = _
  rw [show lidx_main_v0 i k = _ from left_idx i k, show ridx_main_v0 i k = _ from right_idx i k]

/-- The reference's second result is, index by index, the three-contraction variance. -/
theorem var3_eq (x0 x1 : (⟨S2048x16, .f32⟩ : BufTy).Contents (Elt Ideal)) (x2 x3 : (⟨S16384x16, .f32⟩ : BufTy).Contents (Elt Ideal))
    (i : S2048x16384.Idx) :
    val_main_v7 (F := Ideal) x0 x1 x2 x3 i
      = Cert.Moment.varAt3 x0 x1 x2 x3 ⟨(i 0).val, (i 0).isLt⟩ ⟨(i 1).val, (i 1).isLt⟩ := by
  rw [val_main_v7_apply, val_main_v5_apply, val_main_v2_apply, val_main_v4_apply, val_main_v6_apply]
  unfold Cert.Moment.varAt3
  refine congrArg₂ (· + ·) (congrArg₂ (· + ·) (Finset.sum_congr rfl fun k _ => ?_) (Finset.sum_congr rfl fun k _ => ?_))
    (Finset.sum_congr rfl fun k _ => ?_)
  · rw [val_main_v1_apply, show lidx_main_v2 i k = _ from left_idx i k, show ridx_main_v2 i k = _ from right_idx i k]
    rfl
  · rw [val_main_v3_apply, show lidx_main_v4 i k = _ from left_idx i k, show ridx_main_v4 i k = _ from right_idx i k]
    rfl
  · rw [show lidx_main_v6 i k = _ from left_idx i k, show ridx_main_v6 i k = _ from right_idx i k]

/-- On arguments of real entries the reference's second result is the predicted variance. -/
theorem var_eq (x0 x1 : (⟨S2048x16, .f32⟩ : BufTy).Contents (Elt Ideal)) (x2 x3 : (⟨S16384x16, .f32⟩ : BufTy).Contents (Elt Ideal))
    (h0 : AllReal (S := SAlpha) x0) (h1 : AllReal (S := SAlpha) x1) (h2 : AllReal (S := SPhi) x2) (h3 : AllReal (S := SPhi) x3) :
    val_main_v7 (F := Ideal) x0 x1 x2 x3 = Cert.Moment.var x0 x1 x2 x3 := by
  funext i
  rw [var3_eq]
  exact varAt3_eq_varAt x0 x1 x2 x3 h0 h1 h2 h3 _ _

end Cert.ReferenceIdeal.Moment

end
-- ==== Proof.FiniteInputs.lean ====
/-
  From the precondition to real entries.

  The precondition is the conjunction, over the four argument arrays, of "every entry x has |x| < +∞", each taken as
  an `and`-reduction over the whole array of the entrywise comparison. It evaluates to 1 only if every comparison
  does. On the extended reals |x| is `max x (-x)`, which is +∞ at both infinities, and the pattern 0x7F800000 denotes
  +∞; so each entry is neither infinity, that is, a real number.
-/
import proofs.«162974_j52166672777688_2_alg».proof.Proof.Gen.Pre_finite_inputs
import proofs.«162974_j52166672777688_2_alg».proof.Proof.MomentSpec
import Idealize.ShloMosaic.Lib.ReduceAll
import Idealize.ShloMosaic.Lib.ValueIdx
import Idealize.ShloMosaic.PureOps.Ideal

noncomputable section

namespace Cert.Pre_finite_inputs.Moment

open Cert.Pre_finite_inputs Cert.Moment
open Idealize.ShloMosaic Idealize.ShloMosaic.ValueIdx

/-- The scalar shape has one index. -/
instance : Subsingleton S_.Idx := ⟨fun a b => funext fun d => d.elim0⟩

/-- The f32 pattern of +∞ denotes the top extended real. -/
theorem inf_pattern : Ideal.ofBits .f32 0x7F800000#32 = ⊤ := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | top => simp [Ideal.cmp] at h
  | coe r => exact ⟨r, rfl⟩

/-- One conjunct of the precondition: if the `and` over a whole array of "|x| < +∞" is 1, the array's entries are real. -/
theorem allReal_of_all {S : Shape} {axes : List (Fin S.rank)} (x : FVec Ideal S .f32)
    (bc : S_.BroadcastsInDim S (![] : Fin 0 → Fin S.rank)) (rd : S.ReducesTo axes S_) (hu : 0 < S_.numel)
    (e : Host.reduce IntOp.andi (cmpf .olt (Host.absf x) (broadcastInDim S ![] bc (constant (F := Ideal) S_ .f32 0x7F800000#32)))
      (constantI S_ 1 1#1) rd hu ix0 = 1#1) :
    AllReal x := by
  intro i
  have hi := Host.reduce_andi_all _ _ rd hu ix0 e i
  exact real_of_abs_lt_inf (x i) hi

/-- The precondition at the ideal values gives real entries in all four argument arrays. -/
theorem allReal_of_pre (x0 x1 : FVec Ideal S2048x16 .f32) (x2 x3 : FVec Ideal S16384x16 .f32)
    (h : fn (F := Ideal) x0 x1 x2 x3 = fun _ => 1#1) :
    AllReal (S := SAlpha) x0 ∧ AllReal (S := SAlpha) x1 ∧ AllReal (S := SPhi) x2 ∧ AllReal (S := SPhi) x3 := by
  have h' := congrFun h ix0
  dsimp only [fn, fn_part1] at h'
  have h4 : IntOp.andi _ _ = 1#1 := h'
  obtain ⟨h012, h3⟩ := IntOp.andi_eq_one.1 h4
  have h3' : IntOp.andi _ _ = 1#1 := h012
  obtain ⟨h01, h2⟩ := IntOp.andi_eq_one.1 h3'
  have h2' : IntOp.andi _ _ = 1#1 := h01
  obtain ⟨h0, h1⟩ := IntOp.andi_eq_one.1 h2'
  exact ⟨allReal_of_all x0 _ _ _ h0, allReal_of_all x1 _ _ _ h1, allReal_of_all x2 _ _ _ h2, allReal_of_all x3 _ _ _ h3⟩

end Cert.Pre_finite_inputs.Moment

end
-- ==== Proof.lean ====
/-
  Moment matching for a product of independent Gaussians summed over a latent axis of size 16: from branch statistics
  (means `am`, variances `av` : [2048, 16]) and trunk statistics (means `pm`, variances `pv` : [16384, 16]) both programs
  compute the [2048, 16384] arrays

    mean[b, g] = Σ_l am[b, l] · pm[g, l],
    var[b, g]  = Σ_l (av[b, l] · pm[g, l]² + am[b, l]² · pv[g, l] + av[b, l] · pv[g, l]).

  The kernel tiles the outputs into 4 × 8 blocks of [512, 2048]; for each it multiplies a row block of the branch
  statistics with a column block of trunk arrays the host has transposed beforehand, and forms the variance from TWO
  contractions, av · (pm² + pv) and am² · pv. The reference forms it from THREE, av · pm², am² · pv and av · pv, added
  in that order. At the ideal values a contraction is the exact sum of products and rounding the operands is the
  identity, so the means agree term by term, and the variances agree by x · (y + z) = x · y + x · z under the sum and a
  regrouping of sums — which on the extended reals needs the entries to be real: this is where the precondition
  (every input entry finite) is used. The kernel's idealization rewrote nothing, so it preserves the kernel trivially.
-/
import proofs.«162974_j52166672777688_2_alg».proof.Defs
import proofs.«162974_j52166672777688_2_alg».proof.Proof.Gen.Kernel
import proofs.«162974_j52166672777688_2_alg».proof.Proof.Gen.Kernel.Frame
import proofs.«162974_j52166672777688_2_alg».proof.Proof.Gen.KernelIdeal
import proofs.«162974_j52166672777688_2_alg».proof.Proof.Gen.KernelIdeal.Frame
import proofs.«162974_j52166672777688_2_alg».proof.Proof.Gen.ReferenceIdeal
import proofs.«162974_j52166672777688_2_alg».proof.Proof.Gen.Pre_finite_inputs
import proofs.«162974_j52166672777688_2_alg».proof.Proof.Gen.KernelIdeal.Value
import proofs.«162974_j52166672777688_2_alg».proof.Proof.Gen.ReferenceIdeal.Run
import proofs.«162974_j52166672777688_2_alg».proof.Proof.Gen.ReferenceIdeal.Read
import proofs.«162974_j52166672777688_2_alg».proof.Proof.KernelMoment
import proofs.«162974_j52166672777688_2_alg».proof.Proof.RefMoment
import proofs.«162974_j52166672777688_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel's program as printed terminates without fault and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments, all of real entries, the kernel's two outputs and the reference's
    two results are the predicted mean and the predicted variance of those arguments. -/
theorem algebraic : Cert.algebraic_KernelIdeal_ReferenceIdeal := by
  intro m ρ m' ρ' hpre hagree
  refine ⟨fun c => Cert.Moment.mean (Cert.KernelIdeal.Moment.branchMean m c) (Cert.KernelIdeal.Moment.trunkMean m c),
    fun c => Cert.Moment.var (Cert.KernelIdeal.Moment.branchMean m c) (Cert.KernelIdeal.Moment.branchVar m c)
      (Cert.KernelIdeal.Moment.trunkMean m c) (Cert.KernelIdeal.Moment.trunkVar m c),
    Cert.KernelIdeal.Moment.run m ρ, ?_⟩
  refine (θ_run Cert.ReferenceIdeal.defs _ _).mono (fun _ h c => ?_) (Cert.ReferenceIdeal.Value.run (F := Ideal) m' ρ')
  obtain ⟨r0, r1, r2, r3⟩ := Cert.Pre_finite_inputs.Moment.allReal_of_pre _ _ _ _ (hpre c)
  obtain ⟨a0, a1, a2, a3⟩ := hagree c
  refine ⟨(h c).1.trans ?_, (h c).2.1.trans ?_, (h c).2.2⟩
  · rw [a0, a2, Cert.ReferenceIdeal.Read.val_main_v0_eq]
    exact Cert.ReferenceIdeal.Moment.mean_eq _ _
  · rw [a0, a1, a2, a3, Cert.ReferenceIdeal.Read.val_main_v7_eq]
    exact Cert.ReferenceIdeal.Moment.var_eq _ _ _ _ r0 r1 r2 r3

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
